-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x7056x64 : Shape := ⟨3, ![8, 7056, 64]⟩
abbrev S84672 : Shape := ⟨1, ![84672]⟩
abbrev S576x32 : Shape := ⟨2, ![576, 32]⟩
abbrev S32 : Shape := ⟨1, ![32]⟩
abbrev S28224x9 : Shape := ⟨2, ![28224, 9]⟩
abbrev S_ : Shape := ⟨0, ![]⟩

class Facts : Prop where
  bcast_S_S8x7056x64 : S_.BroadcastsInDim S8x7056x64 (![] : Fin 0 → Fin S8x7056x64.rank)
  reducesTo_S8x7056x64_S_d0_1_2 : S8x7056x64.ReducesTo [0, 1, 2] S_
  h_S_ : 0 < S_.numel
  bcast_S_S84672 : S_.BroadcastsInDim S84672 (![] : Fin 0 → Fin S84672.rank)
  reducesTo_S84672_S_d0 : S84672.ReducesTo [0] S_
  bcast_S_S576x32 : S_.BroadcastsInDim S576x32 (![] : Fin 0 → Fin S576x32.rank)
  reducesTo_S576x32_S_d0_1 : S576x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S8x7056x64 .f32) (main_arg1 : FVec F S84672 .f32) (main_arg2 : FVec F S576x32 .f32) (main_arg3 : FVec F S32 .f32) (main_arg4 : IVec S84672 32) (main_arg5 : IVec S84672 32) (main_arg6 : IVec S28224x9 32) : IVec S_ 1 :=
  let main_v0 : FVec F S8x7056x64 .f32 := Host.absf main_arg0
  let main_cst : FVec F S_ .f32 := constant S_ .f32 0x7F800000#32
  let main_v1 : FVec F S8x7056x64 .f32 := broadcastInDim S8x7056x64 ![] bcast_S_S8x7056x64 main_cst
  let main_v2 : IVec S8x7056x64 1 := cmpf .olt main_v0 main_v1
  let main_c : IVec S_ 1 := constantI S_ 1 1#1
  let main_v3 : IVec S_ 1 := (fun x v => Host.reduce IntOp.andi x v reducesTo_S8x7056x64_S_d0_1_2 h_S_) main_v2 main_c
  let main_v4 : FVec F S84672 .f32 := Host.absf main_arg1
  let main_cst_0 : FVec F S_ .f32 := constant S_ .f32 0x7F800000#32
  let main_v5 : FVec F S84672 .f32 := broadcastInDim S84672 ![] bcast_S_S84672 main_cst_0
  let main_v6 : IVec S84672 1 := cmpf .olt main_v4 main_v5
  let main_c_1 : IVec S_ 1 := constantI S_ 1 1#1
  let main_v7 : IVec S_ 1 := (fun x v => Host.reduce IntOp.andi x v reducesTo_S84672_S_d0 h_S_) main_v6 main_c_1
  let main_v8 : IVec S_ 1 := andi main_v3 main_v7
  let main_v9 : FVec F S576x32 .f32 := Host.absf main_arg2
  let main_cst_2 : FVec F S_ .f32 := constant S_ .f32 0x7F800000#32
  let main_v10 : FVec F S576x32 .f32 := broadcastInDim S576x32 ![] bcast_S_S576x32 main_cst_2
  let main_v11 : IVec S576x32 1 := cmpf .olt main_v9 main_v10
  let main_c_3 : IVec S_ 1 := constantI S_ 1 1#1
  let main_v12 : IVec S_ 1 := (fun x v => Host.reduce IntOp.andi x v reducesTo_S576x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S8x7056x64 : Shape := ⟨3, ![8, 7056, 64]⟩
abbrev S84672 : Shape := ⟨1, ![84672]⟩
abbrev S576x32 : Shape := ⟨2, ![576, 32]⟩
abbrev S32 : Shape := ⟨1, ![32]⟩
abbrev S28224x9 : Shape := ⟨2, ![28224, 9]⟩
abbrev S_ : Shape := ⟨0, ![]⟩
abbrev S84672x1 : Shape := ⟨2, ![84672, 1]⟩
abbrev S8x84672x64 : Shape := ⟨3, ![8, 84672, 64]⟩
abbrev S1x84672x1 : Shape := ⟨3, ![1, 84672, 1]⟩
abbrev S8x28224x64 : Shape := ⟨3, ![8, 28224, 64]⟩
abbrev S254016 : Shape := ⟨1, ![254016]⟩
abbrev S254016x1 : Shape := ⟨2, ![254016, 1]⟩
abbrev S8x254016x64 : Shape := ⟨3, ![8, 254016, 64]⟩
abbrev S225792x576 : Shape := ⟨2, ![225792, 576]⟩
abbrev S1x32 : Shape := ⟨2, ![1, 32]⟩
abbrev S225792x32 : Shape := ⟨2, ![225792, 32]⟩
abbrev S7056x576 : Shape := ⟨2, ![7056, 576]⟩
abbrev S7056x32 : Shape := ⟨2, ![7056, 32]⟩
abbrev S8x28224x32 : Shape := ⟨3, ![8, 28224, 32]⟩

abbrev nBuf : Space → Nat
  | .hbm => 46
  | .vmem => 6
  | .smem => 0
  | _ => 0

abbrev bufTy : (tb : Table) → Fin (tcTables nBuf tb) → BufTy
  | .hbm, ⟨0, _⟩ => ⟨S8x7056x64, .f32⟩
  | .hbm, ⟨1, _⟩ => ⟨S84672, .f32⟩
  | .hbm, ⟨2, _⟩ => ⟨S576x32, .f32⟩
  | .hbm, ⟨3, _⟩ => ⟨S32, .f32⟩
  | .hbm, ⟨4, _⟩ => ⟨S84672, .i32⟩
  | .hbm, ⟨5, _⟩ => ⟨S84672, .i32⟩
  | .hbm, ⟨6, _⟩ => ⟨S28224x9, .i32⟩
  | .hbm, ⟨7, _⟩ => ⟨S_, .i32⟩
  | .hbm, ⟨8, _⟩ => ⟨S84672, .i32⟩
  | .hbm, ⟨9, _⟩ => ⟨S84672, .i1⟩
  | .hbm, ⟨10, _⟩ => ⟨S_, .i32⟩
  | .hbm, ⟨11, _⟩ => ⟨S84672, .i32⟩
  | .hbm, ⟨12, _⟩ => ⟨S84672, .i32⟩
  | .hbm, ⟨13, _⟩ => ⟨S84672, .i32⟩
  | .hbm, ⟨14, _⟩ => ⟨S84672x1, .i32⟩
  | .hbm, ⟨15, _⟩ => ⟨S8x84672x64, .f32⟩
  | .hbm, ⟨16, _⟩ => ⟨S1x84672x1, .f32⟩
  | .hbm, ⟨17, _⟩ => ⟨S8x84672x64, .f32⟩
  | .hbm, ⟨18, _⟩ => ⟨S8x84672x64, .f32⟩
  | .hbm, ⟨19, _⟩ => ⟨S_, .f32⟩
  | .hbm, ⟨20, _⟩ => ⟨S8x28224x64, .f32⟩
  | .hbm, ⟨21, _⟩ => ⟨S_, .i32⟩
  | .hbm, ⟨22, _⟩ => ⟨S84672, .i32⟩
  | .hbm, ⟨23, _⟩ => ⟨S84672, .i1⟩
  | .hbm, ⟨24, _⟩ => ⟨S_, .i32⟩
  | .hbm, ⟨25, _⟩ => ⟨S84672, .i32⟩
  | .hbm, ⟨26, _⟩ => ⟨S84672, .i32⟩
  | .hbm, ⟨27, _⟩ => ⟨S84672, .i32⟩
  | .hbm, ⟨28, _⟩ => ⟨S84672x1, .i32⟩
  | .hbm, ⟨29, _⟩ => ⟨S8x28224x64, .f32⟩
  | .hbm, ⟨30, _⟩ => ⟨S8x28224x64, .bf16⟩
  | .hbm, ⟨31, _⟩ => ⟨S254016, .i32⟩
  | .hbm, ⟨32, _⟩ => ⟨S_, .i32⟩
  | .hbm, ⟨33, _⟩ => ⟨S254016, .i32⟩
  | .hbm, ⟨34, _⟩ => ⟨S254016, .i1⟩
  | .hbm, ⟨35, _⟩ => ⟨S_, .i32⟩
  | .hbm, ⟨36, _⟩ => ⟨S254016, .i32⟩
  | .hbm, ⟨37, _⟩ => ⟨S254016, .i32⟩
  | .hbm, ⟨38, _⟩ => ⟨S254016, .i32⟩
  | .hbm, ⟨39, _⟩ => ⟨S254016x1, .i32⟩
  | .hbm, ⟨40, _⟩ => ⟨S8x254016x64, .bf16⟩
  | .hbm, ⟨41, _⟩ => ⟨S225792x576, .bf16⟩
  | .hbm, ⟨42, _⟩ => ⟨S576x32, .bf16⟩
  | .hbm, ⟨43, _⟩ => ⟨S1x32, .f32⟩
  | .hbm, ⟨44, _⟩ => ⟨S225792x32, .f32⟩
  | .hbm, ⟨45, _⟩ => ⟨S8x28224x32, .f32⟩
  | .local _ .vmem, ⟨0, _⟩ => ⟨S7056x576, .bf16⟩
  | .local _ .vmem, ⟨1, _⟩ => ⟨S7056x576, .bf16⟩
  | .local _ .vmem, ⟨2, _⟩ => ⟨S576x32, .bf16⟩
  | .local _ .vmem, ⟨3, _⟩ => ⟨S1x32, .f32⟩
  | .local _ .vmem, ⟨4, _⟩ => ⟨S7056x32, .f32⟩
  | .local _ .vmem, ⟨5, _⟩ => ⟨S7056x32, .f32⟩
  | _, _ => ⟨S8x7056x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7056x576 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S7056x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S84672 : S_.BroadcastsInDim S84672 (![] : Fin 0 → Fin S84672.rank)
  bcast_S84672_S84672x1_0 : S84672.BroadcastsInDim S84672x1 (![0] : Fin 1 → Fin S84672x1.rank)
  bcast_S84672_S1x84672x1_1 : S84672.BroadcastsInDim S1x84672x1 (![1] : Fin 1 → Fin S1x84672x1.rank)
  bcast_S1x84672x1_S8x84672x64_0_1_2 : S1x84672x1.BroadcastsInDim S8x84672x64 (![0, 1, 2] : Fin 3 → Fin S8x84672x64.rank)
  bcast_S_S8x28224x64 : S_.BroadcastsInDim S8x28224x64 (![] : Fin 0 → Fin S8x28224x64.rank)
  bitsLt_bf16_f32 : FTy.bits .bf16 < FTy.bits .f32
  shapeCasts_S28224x9_S254016 : S28224x9.ShapeCasts S254016
  bcast_S_S254016 : S_.BroadcastsInDim S254016 (![] : Fin 0 → Fin S254016.rank)
  bcast_S254016_S254016x1_0 : S254016.BroadcastsInDim S254016x1 (![0] : Fin 1 → Fin S254016x1.rank)
  shapeCasts_S8x254016x64_S225792x576 : S8x254016x64.ShapeCasts S225792x576
  shapeCasts_S32_S1x32 : S32.ShapeCasts S1x32
  inb_S7056x576_S7056x576_0_0 : ∀ a, (![0, 0] : Fin 2 → Nat) a + S7056x576.size a ≤ S7056x576.size a
  h_S7056x576 : 0 < S7056x576.numel
  shapeCasts_S7056x576_S7056x576 : S7056x576.ShapeCasts S7056x576
  inb_S576x32_S576x32_0_0 : ∀ a, (![0, 0] : Fin 2 → Nat) a + S576x32.size a ≤ S576x32.size a
  h_S576x32 : 0 < S576x32.numel
  shapeCasts_S576x32_S576x32 : S576x32.ShapeCasts S576x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S7056x32 : S1x32.Broadcasts S7056x32
  inb_S7056x32_S7056x32_0_0 : ∀ a, (![0, 0] : Fin 2 → Nat) a + S7056x32.size a ≤ S7056x32.size a
  h_S7056x32 : 0 < S7056x32.numel
  shapeCasts_S225792x32_S8x28224x32 : S225792x32.ShapeCasts S8x28224x32
  gather_S8x7056x64_S84672x1_S8x84672x64_02_1_n_n_1_1_8164_wf : GatherDims.WF S8x7056x64 S84672x1 S8x84672x64 [0, 2] [1] [] [1] [] 1 ![8, 1, 64]
  scatter_S8x28224x64_S84672x1_S8x84672x64_02_1_1_1_wf : ScatterDims.WF S8x28224x64 S84672x1 S8x84672x64 [0, 2] [1] [1] 1
  gather_S8x28224x64_S254016x1_S8x254016x64_02_1_n_n_1_1_8164_wf : GatherDims.WF S8x28224x64 S254016x1 S8x254016x64 [0, 2] [1] [] [1] [] 1 ![8, 1, 64]
  dot_S7056x576_S576x32_S7056x32_1_0_0_1_n_n_wf : DotDims.WF S7056x576 S576x32 S7056x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7056x576.size a ≤ S225792x576.size a
  hwx0_0 : ∀ i : grid0.Coords, EltTy.bits .bf16 = 32 ∨ (Rect.block (s := S225792x576) S7056x576.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x32.size a ≤ S576x32.size a
  hwx0_1 : ∀ i : grid0.Coords, EltTy.bits .bf16 = 32 ∨ (Rect.block (s := S576x32) S576x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S7056x32.size a ≤ S225792x32.size a
  hwx0_3 : ∀ i : grid0.Coords, EltTy.bits .f32 = 32 ∨ (Rect.block (s := S225792x32) S7056x32.size (cc0_transform_3 i) (hinb0_3 i)).WholeWords (EltTy.packing .f32)

variable [Facts₀]

def gather_S8x7056x64_S84672x1_S8x84672x64_02_1_n_n_1_1_8164 : GatherDims S8x7056x64 S84672x1 S8x84672x64 where
  offsetDims := [0, 2]
  collapsedSliceDims := [1]
  operandBatchingDims := []
  startIndicesBatchingDims := []
  startIndexMap := [1]
  indexVectorDim := 1
  sliceSizes := ![8, 1, 64]
  wf := gather_S8x7056x64_S84672x1_S8x84672x64_02_1_n_n_1_1_8164_wf
def scatter_S8x28224x64_S84672x1_S8x84672x64_02_1_1_1 : ScatterDims S8x28224x64 S84672x1 S8x84672x64 where
  updateWindowDims := [0, 2]
  insertedWindowDims := [1]
  scatterDimsToOperandDims := [1]
  indexVectorDim := 1
  wf := scatter_S8x28224x64_S84672x1_S8x84672x64_02_1_1_1_wf
def gather_S8x28224x64_S254016x1_S8x254016x64_02_1_n_n_1_1_8164 : GatherDims S8x28224x64 S254016x1 S8x254016x64 where
  offsetDims := [0, 2]
  collapsedSliceDims := [1]
  operandBatchingDims := []
  startIndicesBatchingDims := []
  startIndexMap := [1]
  indexVectorDim := 1
  sliceSizes := ![8, 1, 64]
  wf := gather_S8x28224x64_S254016x1_S8x254016x64_02_1_n_n_1_1_8164_wf
def dot_S7056x576_S576x32_S7056x32_1_0_0_1_n_n : DotDims S7056x576 S576x32 S7056x32 where
  lhsContracting := [1]
  rhsContracting := [0]
  lhsNonContracting := [0]
  rhsNonContracting := [1]
  lhsBatch := []
  rhsBatch := []
  wf := dot_S7056x576_S576x32_S7056x32_1_0_0_1_n_n_wf

abbrev win0_0 : Pipeline.Window sig grid0 :=
  Pipeline.Window.ofSpec (Memref.whole main_v27) S7056x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S576x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S7056x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x7056x64 : Shape := ⟨3, ![8, 7056, 64]⟩
abbrev S84672 : Shape := ⟨1, ![84672]⟩
abbrev S576x32 : Shape := ⟨2, ![576, 32]⟩
abbrev S32 : Shape := ⟨1, ![32]⟩
abbrev S28224x9 : Shape := ⟨2, ![28224, 9]⟩
abbrev S_ : Shape := ⟨0, ![]⟩
abbrev S84672x1 : Shape := ⟨2, ![84672, 1]⟩
abbrev S8x84672x64 : Shape := ⟨3, ![8, 84672, 64]⟩
abbrev S1x84672x1 : Shape := ⟨3, ![1, 84672, 1]⟩
abbrev S8x28224x64 : Shape := ⟨3, ![8, 28224, 64]⟩
abbrev S254016 : Shape := ⟨1, ![254016]⟩
abbrev S254016x1 : Shape := ⟨2, ![254016, 1]⟩
abbrev S8x254016x64 : Shape := ⟨3, ![8, 254016, 64]⟩
abbrev S8x28224x576 : Shape := ⟨3, ![8, 28224, 576]⟩
abbrev S8x28224x32 : Shape := ⟨3, ![8, 28224, 32]⟩
abbrev S1x1x32 : Shape := ⟨3, ![1, 1, 32]⟩

abbrev nBuf : Space → Nat
  | .hbm => 48
  | .vmem => 0
  | .smem => 0
  | _ => 0

abbrev bufTy : (tb : Table) → Fin (tcTables nBuf tb) → BufTy
  | .hbm, ⟨0, _⟩ => ⟨S8x7056x64, .f32⟩
  | .hbm, ⟨1, _⟩ => ⟨S84672, .f32⟩
  | .hbm, ⟨2, _⟩ => ⟨S576x32, .f32⟩
  | .hbm, ⟨3, _⟩ => ⟨S32, .f32⟩
  | .hbm, ⟨4, _⟩ => ⟨S84672, .i32⟩
  | .hbm, ⟨5, _⟩ => ⟨S84672, .i32⟩
  | .hbm, ⟨6, _⟩ => ⟨S28224x9, .i32⟩
  | .hbm, ⟨7, _⟩ => ⟨S_, .i32⟩
  | .hbm, ⟨8, _⟩ => ⟨S84672, .i32⟩
  | .hbm, ⟨9, _⟩ => ⟨S84672, .i1⟩
  | .hbm, ⟨10, _⟩ => ⟨S_, .i32⟩
  | .hbm, ⟨11, _⟩ => ⟨S84672, .i32⟩
  | .hbm, ⟨12, _⟩ => ⟨S84672, .i32⟩
  | .hbm, ⟨13, _⟩ => ⟨S84672, .i32⟩
  | .hbm, ⟨14, _⟩ => ⟨S84672x1, .i32⟩
  | .hbm, ⟨15, _⟩ => ⟨S8x84672x64, .f32⟩
  | .hbm, ⟨16, _⟩ => ⟨S1x84672x1, .f32⟩
  | .hbm, ⟨17, _⟩ => ⟨S8x84672x64, .f32⟩
  | .hbm, ⟨18, _⟩ => ⟨S8x84672x64, .f32⟩
  | .hbm, ⟨19, _⟩ => ⟨S_, .f32⟩
  | .hbm, ⟨20, _⟩ => ⟨S8x28224x64, .f32⟩
  | .hbm, ⟨21, _⟩ => ⟨S_, .i32⟩
  | .hbm, ⟨22, _⟩ => ⟨S84672, .i32⟩
  | .hbm, ⟨23, _⟩ => ⟨S84672, .i1⟩
  | .hbm, ⟨24, _⟩ => ⟨S_, .i32⟩
  | .hbm, ⟨25, _⟩ => ⟨S84672, .i32⟩
  | .hbm, ⟨26, _⟩ => ⟨S84672, .i32⟩
  | .hbm, ⟨27, _⟩ => ⟨S84672, .i32⟩
  | .hbm, ⟨28, _⟩ => ⟨S84672x1, .i32⟩
  | .hbm, ⟨29, _⟩ => ⟨S8x28224x64, .f32⟩
  | .hbm, ⟨30, _⟩ => ⟨S254016, .i32⟩
  | .hbm, ⟨31, _⟩ => ⟨S_, .i32⟩
  | .hbm, ⟨32, _⟩ => ⟨S254016, .i32⟩
  | .hbm, ⟨33, _⟩ => ⟨S254016, .i1⟩
  | .hbm, ⟨34, _⟩ => ⟨S_, .i32⟩
  | .hbm, ⟨35, _⟩ => ⟨S254016, .i32⟩
  | .hbm, ⟨36, _⟩ => ⟨S254016, .i32⟩
  | .hbm, ⟨37, _⟩ => ⟨S254016, .i32⟩
  | .hbm, ⟨38, _⟩ => ⟨S254016x1, .i32⟩
  | .hbm, ⟨39, _⟩ => ⟨S8x254016x64, .f32⟩
  | .hbm, ⟨40, _⟩ => ⟨S8x28224x576, .f32⟩
  | .hbm, ⟨41, _⟩ => ⟨S8x28224x32, .f32⟩
  | .hbm, ⟨42, _⟩ => ⟨S1x1x32, .f32⟩
  | .hbm, ⟨43, _⟩ => ⟨S8x28224x32, .f32⟩
  | .hbm, ⟨44, _⟩ => ⟨S8x28224x32, .f32⟩
  | .hbm, ⟨45, _⟩ => ⟨S_, .f32⟩
  | .hbm, ⟨46, _⟩ => ⟨S8x28224x32, .f32⟩
  | .hbm, ⟨47, _⟩ => ⟨S8x28224x32, .f32⟩
  | _, _ => ⟨S8x7056x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  bcast_S_S84672 : S_.BroadcastsInDim S84672 (![] : Fin 0 → Fin S84672.rank)
  bcast_S84672_S84672x1_0 : S84672.BroadcastsInDim S84672x1 (![0] : Fin 1 → Fin S84672x1.rank)
  bcast_S84672_S1x84672x1_1 : S84672.BroadcastsInDim S1x84672x1 (![1] : Fin 1 → Fin S1x84672x1.rank)
  bcast_S1x84672x1_S8x84672x64_0_1_2 : S1x84672x1.BroadcastsInDim S8x84672x64 (![0, 1, 2] : Fin 3 → Fin S8x84672x64.rank)
  bcast_S_S8x28224x64 : S_.BroadcastsInDim S8x28224x64 (![] : Fin 0 → Fin S8x28224x64.rank)
  shapeCasts_S28224x9_S254016 : S28224x9.ShapeCasts S254016
  bcast_S_S254016 : S_.BroadcastsInDim S254016 (![] : Fin 0 → Fin S254016.rank)
  bcast_S254016_S254016x1_0 : S254016.BroadcastsInDim S254016x1 (![0] : Fin 1 → Fin S254016x1.rank)
  shapeCasts_S8x254016x64_S8x28224x576 : S8x254016x64.ShapeCasts S8x28224x576
  bcast_S32_S1x1x32_2 : S32.BroadcastsInDim S1x1x32 (![2] : Fin 1 → Fin S1x1x32.rank)
  bcast_S1x1x32_S8x28224x32_0_1_2 : S1x1x32.BroadcastsInDim S8x28224x32 (![0, 1, 2] : Fin 3 → Fin S8x28224x32.rank)
  bcast_S_S8x28224x32 : S_.BroadcastsInDim S8x28224x32 (![] : Fin 0 → Fin S8x28224x32.rank)
  gather_S8x7056x64_S84672x1_S8x84672x64_02_1_n_n_1_1_8164_wf : GatherDims.WF S8x7056x64 S84672x1 S8x84672x64 [0, 2] [1] [] [1] [] 1 ![8, 1, 64]
  scatter_S8x28224x64_S84672x1_S8x84672x64_02_1_1_1_wf : ScatterDims.WF S8x28224x64 S84672x1 S8x84672x64 [0, 2] [1] [1] 1
  gather_S8x28224x64_S254016x1_S8x254016x64_02_1_n_n_1_1_8164_wf : GatherDims.WF S8x28224x64 S254016x1 S8x254016x64 [0, 2] [1] [] [1] [] 1 ![8, 1, 64]
  dot_S8x28224x576_S576x32_S8x28224x32_2_0_01_1_n_n_wf : DotDims.WF S8x28224x576 S576x32 S8x28224x32 [2] [0] [0, 1] [1] [] []

variable [Facts₀]

def gather_S8x7056x64_S84672x1_S8x84672x64_02_1_n_n_1_1_8164 : GatherDims S8x7056x64 S84672x1 S8x84672x64 where
  offsetDims := [0, 2]
  collapsedSliceDims := [1]
  operandBatchingDims := []
  startIndicesBatchingDims := []
  startIndexMap := [1]
  indexVectorDim := 1
  sliceSizes := ![8, 1, 64]
  wf := gather_S8x7056x64_S84672x1_S8x84672x64_02_1_n_n_1_1_8164_wf
def scatter_S8x28224x64_S84672x1_S8x84672x64_02_1_1_1 : ScatterDims S8x28224x64 S84672x1 S8x84672x64 where
  updateWindowDims := [0, 2]
  insertedWindowDims := [1]
  scatterDimsToOperandDims := [1]
  indexVectorDim := 1
  wf := scatter_S8x28224x64_S84672x1_S8x84672x64_02_1_1_1_wf
def gather_S8x28224x64_S254016x1_S8x254016x64_02_1_n_n_1_1_8164 : GatherDims S8x28224x64 S254016x1 S8x254016x64 where
  offsetDims := [0, 2]
  collapsedSliceDims := [1]
  operandBatchingDims := []
  startIndicesBatchingDims := []
  startIndexMap := [1]
  indexVectorDim := 1
  sliceSizes := ![8, 1, 64]
  wf := gather_S8x28224x64_S254016x1_S8x254016x64_02_1_n_n_1_1_8164_wf
def dot_S8x28224x576_S576x32_S8x28224x32_2_0_01_1_n_n : DotDims S8x28224x576 S576x32 S8x28224x32 where
  lhsContracting := [2]
  rhsContracting := [0]
  lhsNonContracting := [0, 1]
  rhsNonContracting := [1]
  lhsBatch := []
  rhsBatch := []
  wf := dot_S8x28224x576_S576x32_S8x28224x32_2_0_01_1_n_n_wf

class Facts : Prop extends Facts₀ where

variable [Facts]
-- ==== Proof.LibPlainDot.lean ====
/-
  A plain matrix product M×K by K×N into a zero accumulator, read at an entry over the extended reals: entry (p, q)
  is the sum over c of lhs (p, c) · rhs (c, q). The contraction index, a one-axis multi-index, is re-indexed to its
  one coordinate.
-/
import Idealize.ShloMosaic.Lib.ValueIdx
import Idealize.ShloMosaic.PureOps.Ideal.Laws

namespace Cert.LibPlainDot

open Idealize.ShloMosaic Idealize.ShloMosaic.ValueIdx

/-- The left operand's index at result entry `(p, q)` and contraction coordinate `c` is `(p, c)`. -/
theorem plain_lhsIdx (M K N : ℕ) (p : Fin M) (q : Fin N) (c : Fin K) :
    (DotDims.plain M K N).lhsIdx (ix2 p q) ((contrEquiv1 (DotDims.plain M K N) K rfl rfl).symm c) = ix2 p c := by
  funext a
  refine Fin.ext ?_
  match a with
  | ⟨0, _⟩ => rfl
  | ⟨1, _⟩ =>
    show ((DotDims.plain M K N).lhsIdx (ix2 p q) ((contrEquiv1 (DotDims.plain M K N) K rfl rfl).symm c) 1).val = c.val
    rw [(DotDims.plain M K N).lhsIdx_val_of_single (cl := 1) rfl]
    exact contrEquiv1_symm_val (DotDims.plain M K N) K rfl rfl c

/-- The right operand's index there is `(c, q)`. -/
theorem plain_rhsIdx (M K N : ℕ) (p : Fin M) (q : Fin N) (c : Fin K) :
    (DotDims.plain M K N).rhsIdx (ix2 p q) ((contrEquiv1 (DotDims.plain M K N) K rfl rfl).symm c) = ix2 c q := by
  funext a
  refine Fin.ext ?_
  match a with
  | ⟨0, _⟩ =>
    show ((DotDims.plain M K N).rhsIdx (ix2 p q) ((contrEquiv1 (DotDims.plain M K N) K rfl rfl).symm c) 0).val = c.val
    rw [(DotDims.plain M K N).rhsIdx_val_of_single (cr := 0) rfl]
    exact contrEquiv1_symm_val (DotDims.plain M K N) K rfl rfl c
  | ⟨1, _⟩ => rfl

/-- Entry `(p, q)` of a plain product into the zero accumulator is `∑ c, lhs (p, c) · rhs (c, q)`. -/
theorem matmul_plain_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ c : Fin K, lhs (ix2 p c) * rhs (ix2 c q) := by
  rw [Ideal.matmul_constant_zero_apply, ← Equiv.sum_comp (contrEquiv1 (DotDims.plain M K N) K rfl rfl).symm]
  refine Finset.sum_congr rfl fun c _ => ?_
  rw [plain_lhsIdx, plain_rhsIdx]

end Cert.LibPlainDot
-- ==== Proof.LibMergeRows.lean ====
/-
  Merging the two leading axes of a rank-3 array into one, and splitting them again, read at an index: entry
  (i·b + j, k) of the merged [a·b, c] array is entry (i, j, k) of the [a, b, c] array, both ways.
-/
import Idealize.ShloMosaic.Lib.Pipeline.Value
import Idealize.ShloMosaic.Lib.ValueIdx

namespace Cert.LibMergeRows

open Idealize.ShloMosaic Idealize.ShloMosaic.ValueIdx

variable {α : Type}

/-- An `[a, b, c]` array cast to `[m, c]` reads, at row `r = i·b + j` and column `k`, the operand at `(i, j, k)`. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (r : Fin m)
    (hr : r.val = i.val * b + j.val) :
    shapeCast ⟨2, ![m, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[m, c]` array cast to `[a, b, c]` reads, at `(i, j, k)`, the operand at row `r = i·b + j` and column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (r : Fin m)
    (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibMergeRows
-- ==== Proof.RowsLinear.lean ====
/-
  The last stage of the spiral convolution, as a function of whole arrays over the extended reals.

  The gathered neighbourhoods form one array `sp` of shape [8, 254016, 64] (batch, vertex·9 + neighbour, channel).
  One program reads it as a matrix of 225792 = 8·28224 rows and 576 = 9·64 columns, multiplies every row by the
  weights, adds the bias row and clamps at zero, and views the 225792 result rows as [8, 28224] afterwards; the
  other reads it as [8, 28224, 576] and contracts the last axis. Row b·28224 + n of the matrix is entry (b, n) of the
  rank-3 view — both are the same stretch of `sp` in row-major order — so the two results agree entry by entry.
  No arithmetic law is used: the two sums have the same terms in the same order.
-/
import Idealize.ShloMosaic.Lib.Pipeline.Value
import Idealize.ShloMosaic.Lib.ValueIdx
import Idealize.ShloMosaic.PureOps.Ideal.Laws
import proofs.«136985_j53687091200507_2_alg».proof.Proof.LibMergeRows

noncomputable section

namespace Cert.SpiralLinear

open Idealize.ShloMosaic Idealize.ShloMosaic.ValueIdx

/-- A reshape of a reshape is the reshape straight to the last shape: all three list the same elements in
    row-major order. -/
theorem shapeCast_through {s t u : Shape} {α : Type} (v : s.Idx → α) (h : s.ShapeCasts t) (h' : t.ShapeCasts u)
    (h'' : s.ShapeCasts u) : shapeCast u (shapeCast t v h) h' = shapeCast u v h'' :=
  funext fun i => congrArg v (by
    show Shape.reshapeEquiv _ (Shape.reshapeEquiv _ i) = Shape.reshapeEquiv _ i
    rw [Shape.reshapeEquiv_reshapeEquiv])

abbrev SSp : Shape := ⟨3, ![8, 254016, 64]⟩
abbrev SMat : Shape := ⟨2, ![225792, 576]⟩
abbrev SNb : Shape := ⟨3, ![8, 28224, 576]⟩
abbrev SW : Shape := ⟨2, ![576, 32]⟩
abbrev SB : Shape := ⟨1, ![32]⟩
abbrev SBRow : Shape := ⟨2, ![1, 32]⟩
abbrev SOutMat : Shape := ⟨2, ![225792, 32]⟩
abbrev SOut : Shape := ⟨3, ![8, 28224, 32]⟩

/-- Rows times weights, plus the bias row, clamped at zero: entry (r, q) is max (Σ_c A(r,c)·W(c,q) + b(0,q)) 0. -/
def rowsLinear (A : SMat.Idx → EReal) (W : SW.Idx → EReal) (b : SBRow.Idx → EReal) : SOutMat.Idx → EReal :=
  fun j => max ((∑ c : Fin 576, A (ix2 (j 0) c) * W (ix2 c (j 1))) + b (ix2 0 (j 1))) (Ideal.ofBits .f32 0x00000000#32)

/-- The same over the rank-3 view: entry (b, n, q) is max (Σ_k N(b,n,k)·W(k,q) + bias(q)) 0. -/
def nbLinear (N : SNb.Idx → EReal) (W : SW.Idx → EReal) (b : SB.Idx → EReal) : SOut.Idx → EReal :=
  fun i => max ((∑ k : Fin 576, N (ix3 (i 0) (i 1) k) * W (ix2 k (i 2))) + b (ix1 (i 2))) (Ideal.ofBits .f32 0x00000000#32)

/-- The matrix form, its rows viewed as [8, 28224], is the rank-3 form. -/
theorem rowsLinear_eq_nbLinear (sp : SSp.Idx → EReal) (W : SW.Idx → EReal) (b : SB.Idx → EReal)
    (h1 : SSp.ShapeCasts SMat) (h2 : SSp.ShapeCasts SNb) (h3 : SB.ShapeCasts SBRow) (h4 : SOutMat.ShapeCasts SOut) :
    shapeCast SOut (rowsLinear (shapeCast SMat sp h1) W (shapeCast SBRow b h3)) h4 = nbLinear (shapeCast SNb sp h2) W b := by
  funext i
  obtain ⟨i0, i1, i2, rfl⟩ : ∃ (i0 : Fin 8) (i1 : Fin 28224) (i2 : Fin 32), i = ix3 i0 i1 i2 := ⟨i 0, i 1, i 2, eq_ix3 i⟩
  have hr : i0.val * 28224 + i1.val < 225792 := by have := i0.isLt; have := i1.isLt; omega
  rw [LibMergeRows.shapeCast_mc_abc_apply _ h4 i0 i1 i2 ⟨_, hr⟩ rfl]
  show max ((∑ c : Fin 576, shapeCast SMat sp h1 (ix2 ⟨_, hr⟩ c) * W (ix2 c i2)) + shapeCast SBRow b h3 (ix2 0 i2)) _
    = max ((∑ k : Fin 576, shapeCast SNb sp h2 (ix3 i0 i1 k) * W (ix2 k i2)) + b (ix1 i2)) _
  have hrow : ∀ k : Fin 576, shapeCast SMat sp h1 (ix2 ⟨_, hr⟩ k) = shapeCast SNb sp h2 (ix3 i0 i1 k) := fun k => by
    rw [← shapeCast_through sp h1 (by decide : SMat.ShapeCasts SNb) h2]
    exact (LibMergeRows.shapeCast_mc_abc_apply _ _ i0 i1 k ⟨_, hr⟩ rfl).symm
  have hb : shapeCast SBRow b h3 (ix2 0 i2) = b (ix1 i2) :=
    shapeCast_apply b h3 _ (ix1 i2) (by
      rw [Shape.rowMajor_val_one, Shape.rowMajor_val_two]
      show i2.val = 0 * 32 + i2.val
      omega)
  rw [hb]
  simp only [hrow]

end Cert.SpiralLinear

end
-- ==== Proof.KernelBlock.lean ====
/-
  What the linear-and-clamp kernel leaves in its output array.

  The grid has 32 points; point t works on rows 7056·t … 7056·t + 7055 of the row matrix, with the whole weight
  matrix and the whole bias row beside them, and writes the same rows of the output: entry (p, q) of its block is
  max (Σ_c rows(p,c)·weights(c,q) + bias(0,q)) 0. The 32 row blocks tile the 225792 rows, so after the last point
  the output array is `rowsLinear` of the three arrays the region was entered with.
-/
import proofs.«136985_j53687091200507_2_alg».proof.Proof.Gen.KernelIdeal.Frame
import proofs.«136985_j53687091200507_2_alg».proof.Proof.LibPlainDot
import proofs.«136985_j53687091200507_2_alg».proof.Proof.RowsLinear
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Block

open Cert.KernelIdeal Cert.KernelIdeal.Gen Cert.SpiralLinear

variable (m : (ℓ : Loc nD τ sig) → Buf (Elt Ideal) ℓ) (ρ : Dev nD → PrngReg)

theorem off_zero : (![0, 0] : Fin 2 → Nat) = fun _ => 0 := funext fun a => by fin_cases a <;> rfl

/-- The body's one stored value at entry `j` of the block: the row `j 0` of the loaded rows against column `j 1` of the
    loaded weights, plus the bias row's entry, clamped at zero. -/
theorem payload_apply (x0 : Vec Ideal S7056x576 .bf16) (x1 : Vec Ideal S576x32 .bf16) (x2 : Vec Ideal S1x32 .f32)
    (j : S7056x32.Idx) :
    k0_pay1 (F := Ideal) x0 x1 x2 j
      = max ((∑ c : Fin 576, x0 (ix2 (j 0) c) * x1 (ix2 c (j 1))) + x2 (ix2 0 (j 1))) (Ideal.ofBits .f32 0x00000000#32) := by
  obtain ⟨p, q, rfl⟩ : ∃ (p : Fin 7056) (q : Fin 32), j = ix2 p q := ⟨j 0, j 1, eq_ix2 j⟩
  unfold k0_pay1
  show max ((FloatOps.matmul (F := Ideal) dot_S7056x576_S576x32_S7056x32_1_0_0_1_n_n none (shapeCast S7056x576 x0 _) (shapeCast S576x32 x1 _)
        (constant S7056x32 .f32 0x00000000#32) (ix2 p q) : EReal)
      + (broadcastTo S7056x32 (shapeCast S1x32 x2 _) _ (ix2 p q) : EReal)) (Ideal.ofBits .f32 0x00000000#32) = _
  rw [shapeCast_self, shapeCast_self, shapeCast_self]
  have hdot : (FloatOps.matmul (F := Ideal) (φ₁ := .bf16) (φ₂ := .bf16) dot_S7056x576_S576x32_S7056x32_1_0_0_1_n_n none x0 x1 (constant S7056x32 .f32 0x00000000#32) (ix2 p q) : EReal)
      = ∑ c : Fin 576, (x0 (ix2 p c) : EReal) * (x1 (ix2 c q) : EReal) :=
    Cert.LibPlainDot.matmul_plain_zero_apply (φ₁ := .bf16) (φ₂ := .bf16) 7056 576 32 none x0 x1 p q
  have hb : (broadcastTo S7056x32 x2 broadcasts_S1x32_S7056x32 (ix2 p q) : EReal) = x2 (ix2 0 q) :=
    broadcastTo_apply x2 _ _ (ix2 0 q) (fun a => by
      match a with
      | ⟨0, _⟩ => rfl
      | ⟨1, _⟩ => rfl)
  rw [hdot, hb]

/-- A block entry, spelt with the rows, weights and bias read at indices that are the row, column and bias entry of the
    array index `i`, is `rowsLinear` there. -/
theorem block_entry (A : SMat.Idx → EReal) (W : SW.Idx → EReal) (B : SBRow.Idx → EReal)
    (e0 : Fin 576 → SMat.Idx) (e1 : Fin 576 → SW.Idx) (e2 : SBRow.Idx) (i : SOutMat.Idx)
    (h0 : ∀ k, e0 k = ix2 (i 0) k) (h1 : ∀ k, e1 k = ix2 k (i 1)) (h2 : e2 = ix2 0 (i 1)) :
    max ((∑ k : Fin 576, A (e0 k) * W (e1 k)) + B e2) (Ideal.ofBits .f32 0x00000000#32) = rowsLinear A W B i := by
  simp only [h0, h1, h2]
  rfl

/-- The printed index maps over the grid: the row matrix and the output move one block of 7056 rows per point;
    the weights and the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `rowsLinear` of the arrays the region was entered with. -/
theorem flushed_eq (c : Dev nD) (t : Fin cfg0.N) :
    (dats m 0 c).flushed 3 t
      = ((cfg0.win 3).blk t).view.read (Elt Ideal) (rowsLinear (V m c main_v27) (V m c main_v28) (V m c main_v29)) := by
  show (cfg0.win 3).cut (grid0.coords t) ((dats m 0 c).after 3 t) = _
  rw [after0_3]
  unfold out0_3
  rw [View.canon_unit_zero off_zero]
  simp only [View.ld_unit_zero (S := S7056x576) off_zero, View.ld_unit_zero (S := S576x32) off_zero,
    View.ld_unit_zero (S := S1x32) off_zero]
  obtain ⟨e00, e01, e10, e11, e20, e21, e30, e31⟩ := idx_facts t
  funext j
  show k0_pay1 (F := Ideal) (iblk m c 0 t) (iblk m c 1 t) (iblk m c 2 t) j
    = rowsLinear (V m c main_v27) (V m c main_v28) (V m c main_v29) (((cfg0.win 3).blk t).view.emb j)
  refine (payload_apply (iblk m c 0 t) (iblk m c 1 t) (iblk m c 2 t) j).trans ?_
  have hj0 : (j 0).val < 7056 := (j 0).isLt
  have hj1 : (j 1).val < 32 := (j 1).isLt
  have h0 : ∀ k : Fin 576, ((cfg0.win 0).blk t).view.emb (ix2 (j 0) k) = ix2 ((((cfg0.win 3).blk t).view.emb j) 0) k := fun k => by
    funext a; apply Fin.ext
    match a with
    | ⟨0, _⟩ => show win0_0.index t (0 : Fin 2) * 7056 + 1 * (j 0).val = win0_3.index t (0 : Fin 2) * 7056 + 1 * (j 0).val; omega
    | ⟨1, _⟩ => show win0_0.index t (1 : Fin 2) * 576 + 1 * k.val = k.val; omega
  have h1 : ∀ k : Fin 576, ((cfg0.win 1).blk t).view.emb (ix2 k (j 1)) = ix2 k ((((cfg0.win 3).blk t).view.emb j) 1) := fun k => by
    funext a; apply Fin.ext
    match a with
    | ⟨0, _⟩ => show win0_1.index t (0 : Fin 2) * 576 + 1 * k.val = k.val; omega
    | ⟨1, _⟩ => show win0_1.index t (1 : Fin 2) * 32 + 1 * (j 1).val = win0_3.index t (1 : Fin 2) * 32 + 1 * (j 1).val; omega
  have h2 : ((cfg0.win 2).blk t).view.emb (ix2 0 (j 1)) = ix2 0 ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 32 + 1 * (j 1).val = win0_3.index t (1 : Fin 2) * 32 + 1 * (j 1).val; omega
  exact block_entry (V m c main_v27) (V m c main_v28) (V m c main_v29)
    (fun k => ((cfg0.win 0).blk t).view.emb (ix2 (j 0) k)) (fun k => ((cfg0.win 1).blk t).view.emb (ix2 k (j 1)))
    (((cfg0.win 2).blk t).view.emb (ix2 0 (j 1))) (((cfg0.win 3).blk t).view.emb j) h0 h1 h2

/-- An index of the output array is in point `t`'s block iff each coordinate is in the block's range on its axis. -/
theorem mem_blk (t : Fin cfg0.N) (i : S225792x32.Idx) :
    i ∈ ((cfg0.win 3).blk t).view.set ↔ ∀ a : Fin 2, win0_3.index t a * S7056x32.size a ≤ (i a).val
      ∧ (i a).val < win0_3.index t a * S7056x32.size a + S7056x32.size a := by
  show i ∈ ((View.whole main_v30).slice (win0_3.rect t)).set ↔ _
  rw [View.set_slice_whole, Rect.mem_set_unit]
  exact Iff.rfl

/-- Every row of the output is in the block of the point its number divided by 7056 names. -/
theorem cover (i : S225792x32.Idx) : ∃ t : Fin cfg0.N, (cfg0.win 3).flush t = true ∧ i ∈ ((cfg0.win 3).blk t).view.set := by
  have hi0 : (i 0).val < 225792 := (i 0).isLt
  have hi1 : (i 1).val < 32 := (i 1).isLt
  have hN : cfg0.N = 32 := N_0
  let t : Fin cfg0.N := ⟨(i 0).val / 7056, by rw [hN]; omega⟩
  obtain ⟨-, -, -, -, -, -, e30, e31⟩ := idx_facts t
  have ht : t.val = (i 0).val / 7056 := rfl
  refine ⟨t, flush0_3 t, ?_⟩
  rw [mem_blk]
  intro a
  match a with
  | ⟨0, _⟩ => show win0_3.index t (0 : Fin 2) * 7056 ≤ (i 0).val ∧ (i 0).val < win0_3.index t (0 : Fin 2) * 7056 + 7056; omega
  | ⟨1, _⟩ => show win0_3.index t (1 : Fin 2) * 32 ≤ (i 1).val ∧ (i 1).val < win0_3.index t (1 : Fin 2) * 32 + 32; omega

/-- The output array after the last point. -/
theorem final (c : Dev nD) :
    (dats m 0 c).arrAt 3 cfg0.N = rowsLinear (V m c main_v27) (V m c main_v28) (V m c main_v29) :=
  (dats m 0 c).arrAt_eq_of_cover 3 _ (fun t _ => flushed_eq m c t) cover

end Cert.KernelIdeal.Block

end
-- ==== Proof.KernelHostRows.lean ====
/-
  The row matrix the region is entered with.

  Before the region the program pools (gathers rows of x by col, scales them by val, scatter-adds them by row into
  zeros), changes the float format of the pooled array (no change of value over the extended reals), gathers the
  nine spiral neighbours of every vertex from it by the flattened index table, and views the gathered
  [8, 254016, 64] array as 225792 rows of 576. `spiral` names the gathered array as a function of the five argument
  arrays it depends on; the region's first operand is its reshape.
-/
import proofs.«136985_j53687091200507_2_alg».proof.Proof.Gen.KernelIdeal.Frame
import Idealize.ShloMosaic.Lib.StableHlo.Run
import Idealize.ShloMosaic.PureOps.Ideal.Laws

set_option maxRecDepth 16384

noncomputable section

open Idealize.ShloMosaic Idealize.ShloMosaic.TcCoe Idealize.SL.Sem

namespace Cert.KernelIdeal.Whole

open Cert.KernelIdeal Cert.KernelIdeal.Gen

/-- The gathered neighbourhoods [8, 254016, 64]: entry (b, n·9 + s, ch) is the pooled array at (b, indices(n, s), ch),
    a negative index counted from the end. -/
def spiral (x0 : FVec Ideal S8x7056x64 .f32) (x1 : FVec Ideal S84672 .f32) (x4 x5 : IVec S84672 32) (x6 : IVec S28224x9 32) :
    FVec Ideal S8x254016x64 .bf16 :=
  Host.gather gather_S8x28224x64_S254016x1_S8x254016x64_02_1_n_n_1_1_8164
    (truncf .bf16
      (Host.scatterAdd scatter_S8x28224x64_S84672x1_S8x84672x64_02_1_1_1
        (broadcastInDim S8x28224x64 ![] bcast_S_S8x28224x64 (constant S_ .f32 0x00000000#32))
        (broadcastInDim S84672x1 ![0] bcast_S84672_S84672x1_0
          (select (cmpi .slt x4 (broadcastInDim S84672 ![] bcast_S_S84672 (constantI S_ 32 0#32)))
            (addi x4 (broadcastInDim S84672 ![] bcast_S_S84672 (constantI S_ 32 28224#32))) x4))
        (mulf
          (Host.gather gather_S8x7056x64_S84672x1_S8x84672x64_02_1_n_n_1_1_8164 x0
            (broadcastInDim S84672x1 ![0] bcast_S84672_S84672x1_0
              (select (cmpi .slt x5 (broadcastInDim S84672 ![] bcast_S_S84672 (constantI S_ 32 0#32)))
                (addi x5 (broadcastInDim S84672 ![] bcast_S_S84672 (constantI S_ 32 7056#32))) x5)))
          (broadcastInDim S8x84672x64 ![0, 1, 2] bcast_S1x84672x1_S8x84672x64_0_1_2
            (broadcastInDim S1x84672x1 ![1] bcast_S84672_S1x84672x1_1 x1))))
      bitsLt_bf16_f32)
    (broadcastInDim S254016x1 ![0] bcast_S254016_S254016x1_0
      (select
        (cmpi .slt (shapeCast S254016 x6 shapeCasts_S28224x9_S254016) (broadcastInDim S254016 ![] bcast_S_S254016 (constantI S_ 32 0#32)))
        (addi (shapeCast S254016 x6 shapeCasts_S28224x9_S254016) (broadcastInDim S254016 ![] bcast_S_S254016 (constantI S_ 32 28224#32)))
        (shapeCast S254016 x6 shapeCasts_S28224x9_S254016)))

variable (m : (ℓ : Loc nD τ sig) → Buf (Elt Ideal) ℓ)

set_option maxHeartbeats 2000000 in
/-- The region's first operand is the gathered array viewed as 225792 rows of 576. -/
theorem V_rows (c : Dev nD) :
    V m c main_v27 = shapeCast S225792x576
      (spiral (m ((c.tc : Thread nD τ).loc main_arg0)) (m ((c.tc : Thread nD τ).loc main_arg1)) (m ((c.tc : Thread nD τ).loc main_arg4))
        (m ((c.tc : Thread nD τ).loc main_arg5)) (m ((c.tc : Thread nD τ).loc main_arg6)))
      shapeCasts_S8x254016x64_S225792x576 := by
  show StableHlo.after hostOps0 (fun b => m (c, b)) (Proc.devRef .tc main_v27) = _
  after_results
  rfl

end Cert.KernelIdeal.Whole

end
-- ==== Proof.KernelHostSmall.lean ====
/-
  The weights and the bias row the region is entered with, and the program's result after it.

  The weights reach the region through a change of float format (no change of value over the extended reals), the bias
  as a [1, 32] row; after the region the 225792 output rows are viewed as [8, 28224] rows of 32.
-/
import proofs.«136985_j53687091200507_2_alg».proof.Proof.Gen.KernelIdeal.Frame
import Idealize.ShloMosaic.Lib.StableHlo.Run
import Idealize.ShloMosaic.PureOps.Ideal.Laws

set_option maxRecDepth 16384

noncomputable section

open Idealize.ShloMosaic Idealize.ShloMosaic.TcCoe Idealize.SL.Sem

namespace Cert.KernelIdeal.Whole

open Cert.KernelIdeal Cert.KernelIdeal.Gen

variable (m : (ℓ : Loc nD τ sig) → Buf (Elt Ideal) ℓ)

set_option maxHeartbeats 2000000 in
/-- The region's second operand: the weight argument. -/
theorem V_weights (c : Dev nD) :
    @Eq (FVec Ideal S576x32 .bf16) (V m c main_v28)
      (truncf .bf16 (m ((c.tc : Thread nD τ).loc main_arg2) : FVec Ideal S576x32 .f32) bitsLt_bf16_f32) := by
  show StableHlo.after hostOps0 (fun b => m (c, b)) (Proc.devRef .tc main_v28) = _
  after_results <;> rfl

set_option maxHeartbeats 2000000 in
/-- The region's third operand: the bias argument as one row. -/
theorem V_bias (c : Dev nD) :
    @Eq (FVec Ideal S1x32 .f32) (V m c main_v29)
      (shapeCast S1x32 (m ((c.tc : Thread nD τ).loc main_arg3) : FVec Ideal S32 .f32) shapeCasts_S32_S1x32) := by
  show StableHlo.after hostOps0 (fun b => m (c, b)) (Proc.devRef .tc main_v29) = _
  after_results <;> rfl

set_option maxHeartbeats 2000000 in
/-- The program's result: the region's output array, its rows viewed as [8, 28224]. -/
theorem tail_eq (c : Dev nD) :
    @Eq (FVec Ideal S8x28224x32 .f32) (Pipeline.afterTail₀ cfgs (dats m) 0 (V0 m) [hostOps1] c main_v31)
      (shapeCast S8x28224x32 ((dats m 0 c).arrAt 3 cfg0.N : FVec Ideal S225792x32 .f32) shapeCasts_S225792x32_S8x28224x32) := by
  unfold Pipeline.afterTail₀
  show StableHlo.after hostOps1 _ (Proc.devRef .tc main_v31) = _
  after_results
  have e : Pipeline.withArrays (cfgs 0).spec c (V0 m c) (fun w => (dats m 0 c).arrAt w (cfgs 0).N) (Proc.devRef .tc main_v30)
      = (dats m 0 c).arrAt 3 cfg0.N :=
    Pipeline.withArrays_arr spec0 launch0.win.arr_inj c (V0 m c) (fun w => (dats m 0 c).arrAt w cfg0.N) 3
  rw [e]
  rfl

end Cert.KernelIdeal.Whole

end
-- ==== Proof.KernelRun.lean ====
/-
  The kernel program's run, read: its result as one function of the argument arrays.

  The region's output array is `rowsLinear` of the row matrix, the weights and the bias row (the 32 row blocks tile it);
  the row matrix is the gathered array `spiral` reshaped, and the program's result is the output's rows viewed as
  [8, 28224]. By `rowsLinear_eq_nbLinear` that is `nbLinear` of the rank-3 view of `spiral`.
-/
import proofs.«136985_j53687091200507_2_alg».proof.Proof.KernelBlock
import proofs.«136985_j53687091200507_2_alg».proof.Proof.KernelHostRows
import proofs.«136985_j53687091200507_2_alg».proof.Proof.KernelHostSmall

set_option maxRecDepth 16384

noncomputable section

open Idealize.ShloMosaic Idealize.ShloMosaic.TcCoe Idealize.SL.Sem

namespace Cert.KernelIdeal.Whole

open Cert.KernelIdeal Cert.KernelIdeal.Gen Cert.SpiralLinear

/-- The program's result from its argument arrays: max (Σ_k N(b,n,k)·W(k,q) + bias(q)) 0 over the rank-3 view N of the
    gathered neighbourhoods. -/
def resultOf (x0 : FVec Ideal S8x7056x64 .f32) (x1 : FVec Ideal S84672 .f32) (x2 : FVec Ideal S576x32 .f32)
    (x3 : FVec Ideal S32 .f32) (x4 x5 : IVec S84672 32) (x6 : IVec S28224x9 32) : FVec Ideal S8x28224x32 .f32 :=
  nbLinear (shapeCast SNb (spiral x0 x1 x4 x5 x6) (by decide)) x2 x3

/-- A change of float format is the identity on extended reals. -/
theorem truncf_id {s : Shape} (x : FVec Ideal s .f32) (h : FTy.bf16.bits < FTy.f32.bits) :
    @Eq (s.Idx → EReal) (truncf .bf16 x h) x := rfl

variable (m : (ℓ : Loc nD τ sig) → Buf (Elt Ideal) ℓ) (ρ : Dev nD → PrngReg)

/-- The result buffer after the host tail is `resultOf` of the argument arrays. -/
theorem result_eq (c : Dev nD) :
    @Eq (FVec Ideal S8x28224x32 .f32) (Pipeline.afterTail₀ cfgs (dats m) 0 (V0 m) [hostOps1] c main_v31)
      (resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  refine (tail_eq m c).trans ?_
  rw [Block.final m c, V_rows m c, V_weights m c, V_bias m c, truncf_id]
  exact rowsLinear_eq_nbLinear _ _ _ _ _ _ _

/-- Every weakly fair execution ends with the result at `resultOf` of the arguments, the arguments unchanged. -/
theorem run : θ_run defs (onTc (τ := τ) (main (F := Ideal))) ⟨m, fun _ => 0, ρ⟩ (fun r => ∀ c : Dev nD,
      r.2.mem ((c.tc : Thread nD τ).loc main_v31) = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v31 (Pipeline.mem_restRefs_of main_v31 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Whole

end
-- ==== Proof.RefValue.lean ====
/-
  The reference's result, entry by entry.

  After pooling and gathering, the reference views the gathered [8, 254016, 64] array as [8, 28224, 576], contracts
  its last axis against the weights, adds the bias along the last axis and clamps at zero: entry (b, n, q) is
  max (Σ_k N(b,n,k)·W(k,q) + bias(q)) 0 — `nbLinear` of the rank-3 view.
-/
import proofs.«136985_j53687091200507_2_alg».proof.Proof.Gen.ReferenceIdeal.Read
import proofs.«136985_j53687091200507_2_alg».proof.Proof.RowsLinear
import Idealize.ShloMosaic.Lib.ValueIdx
import Idealize.ShloMosaic.PureOps.Ideal.Laws

set_option maxRecDepth 16384

noncomputable section

open Idealize.ShloMosaic Idealize.ShloMosaic.TcCoe Idealize.SL.Sem

namespace Cert.ReferenceIdeal.RefValue

open Cert.ReferenceIdeal Cert.ReferenceIdeal.Gen Cert.ReferenceIdeal.Read Cert.SpiralLinear Idealize.ShloMosaic.ValueIdx

/-- The reference's result is `nbLinear` of its rank-3 view of the gathered array, the weights and the bias. -/
theorem result_eq (x0 : FVec Ideal S8x7056x64 .f32) (x1 : FVec Ideal S84672 .f32) (x2 : FVec Ideal S576x32 .f32)
    (x3 : FVec Ideal S32 .f32) (x4 x5 : IVec S84672 32) (x6 : IVec S28224x9 32) :
    val_main_v31 (F := Ideal) x0 x1 x2 x3 x4 x5 x6
      = nbLinear (shapeCast S8x28224x576 (val_main_v25 (F := Ideal) x0 x1 x4 x5 x6) shapeCasts_S8x254016x64_S8x28224x576) x2 x3 := by
  funext i
  rw [val_main_v31_apply, val_main_v30_apply, val_main_v27_apply, val_main_v29_apply, val_main_v28_apply,
    val_main_call0_v0_apply, val_main_call0_cst_apply]
  have e1 : ∀ k : Fin 576, lidx_main_v27 i k = ix3 (i 0) (i 1) k := fun k => funext fun a => Fin.ext (by
    match a with
    | ⟨0, _⟩ => rfl
    | ⟨1, _⟩ => rfl
    | ⟨2, _⟩ => rfl)
  have e2 : ∀ k : Fin 576, ridx_main_v27 i k = ix2 k (i 2) := fun k => funext fun a => Fin.ext (by
    match a with
    | ⟨0, _⟩ => rfl
    | ⟨1, _⟩ => rfl)
  have e3 : idx_main_v28 (idx_main_v29 i) = ix1 (i 2) := funext fun a => Fin.ext (by
    match a with
    | ⟨0, _⟩ => rfl)
  simp only [e1, e2, e3]
  rfl

end Cert.ReferenceIdeal.RefValue

end
-- ==== Proof.Bridge.lean ====
/-
  The two programs compute one function.

  Both pool and gather by the same operations on the same arguments, so the gathered array is one term in both (the
  kernel program's change of float format between pooling and gathering does nothing over the extended reals); both
  results are `nbLinear` of its rank-3 view, the weights and the bias.
-/
import proofs.«136985_j53687091200507_2_alg».proof.Proof.KernelRun
import proofs.«136985_j53687091200507_2_alg».proof.Proof.RefValue

set_option maxRecDepth 16384

noncomputable section

open Idealize.ShloMosaic Idealize.ShloMosaic.TcCoe Idealize.SL.Sem

namespace Cert.Proof.Bridge

open Cert.SpiralLinear

/-- A gather from a format-changed array is the gather from the array. -/
theorem gather_truncf {s si so : Shape} (d : GatherDims s si so) (P : FVec Ideal s .f32) (h : FTy.bf16.bits < FTy.f32.bits)
    (I : IVec si 32) : @Eq (so.Idx → EReal) (Host.gather d (truncf .bf16 P h) I) (Host.gather d P I) := rfl

/-- The gathered neighbourhoods are the same array in both programs. -/
theorem spiral_eq (x0 : FVec Ideal Cert.KernelIdeal.S8x7056x64 .f32) (x1 : FVec Ideal Cert.KernelIdeal.S84672 .f32)
    (x4 x5 : IVec Cert.KernelIdeal.S84672 32) (x6 : IVec Cert.KernelIdeal.S28224x9 32) :
    @Eq (SSp.Idx → EReal) (Cert.KernelIdeal.Whole.spiral x0 x1 x4 x5 x6) (Cert.ReferenceIdeal.Read.val_main_v25 (F := Ideal) x0 x1 x4 x5 x6) :=
  (gather_truncf _ _ _ _).trans rfl

/-- The kernel program's result function is the reference's last stage. -/
theorem resultOf_eq (x0 : FVec Ideal Cert.KernelIdeal.S8x7056x64 .f32) (x1 : FVec Ideal Cert.KernelIdeal.S84672 .f32)
    (x2 : FVec Ideal Cert.KernelIdeal.S576x32 .f32) (x3 : FVec Ideal Cert.KernelIdeal.S32 .f32)
    (x4 x5 : IVec Cert.KernelIdeal.S84672 32) (x6 : IVec Cert.KernelIdeal.S28224x9 32) :
    @Eq (SOut.Idx → EReal) (Cert.KernelIdeal.Whole.resultOf x0 x1 x2 x3 x4 x5 x6)
      (Cert.ReferenceIdeal.Read.val_main_v31 (F := Ideal) x0 x1 x2 x3 x4 x5 x6) := by
  rw [Cert.ReferenceIdeal.RefValue.result_eq]
  unfold Cert.KernelIdeal.Whole.resultOf
  rw [spiral_eq]

end Cert.Proof.Bridge

end
-- ==== Proof.lean ====
/-
  The certificate of the spiral deblocking layer: sparse pooling (rows of x gathered by col, scaled by val, scatter-added
  by row into zeros), a gather of every vertex's nine spiral neighbours from the pooled array, and a linear layer with
  bias and a clamp at zero over the 576 gathered channels of each vertex.

  One program does the linear layer inside a tiled region, over the gathered array viewed as 225792 rows of 576, 7056
  rows per grid point, and views the result rows as [8, 28224] afterwards; the reference contracts the [8, 28224, 576]
  view directly. Over the extended reals both results are max (Σ_k N(b,n,k)·W(k,q) + bias(q)) 0 with N the same array —
  pooling and gathering are the same operations of the same arguments in both, and a change of float format is the
  identity — so the claim needs no arithmetic law and never uses that the inputs are finite. The idealizing pass rewrote
  nothing, so the program is its own idealization.

  Modules: RowsLinear (the two forms of the last stage, and that they agree), KernelBlock (what a grid point writes back;
  the output array after the last point), KernelHostRows / KernelHostSmall (the arrays the region is entered with, the
  result after it), KernelRun (the program's run, read), RefValue (the reference's result entry by entry), Bridge (one
  function).
-/
import proofs.«136985_j53687091200507_2_alg».proof.Defs
import proofs.«136985_j53687091200507_2_alg».proof.Proof.Gen.Kernel
import proofs.«136985_j53687091200507_2_alg».proof.Proof.Gen.Kernel.Skeleton
import proofs.«136985_j53687091200507_2_alg».proof.Proof.Gen.Kernel.Launch
import proofs.«136985_j53687091200507_2_alg».proof.Proof.Gen.Kernel.Points
import proofs.«136985_j53687091200507_2_alg».proof.Proof.Gen.Kernel.Frame
import proofs.«136985_j53687091200507_2_alg».proof.Proof.Gen.KernelIdeal
import proofs.«136985_j53687091200507_2_alg».proof.Proof.Gen.KernelIdeal.Skeleton
import proofs.«136985_j53687091200507_2_alg».proof.Proof.Gen.KernelIdeal.Launch
import proofs.«136985_j53687091200507_2_alg».proof.Proof.Gen.KernelIdeal.Points
import proofs.«136985_j53687091200507_2_alg».proof.Proof.Gen.KernelIdeal.Frame
import proofs.«136985_j53687091200507_2_alg».proof.Proof.Gen.ReferenceIdeal
import proofs.«136985_j53687091200507_2_alg».proof.Proof.Gen.Pre_finite_inputs
import proofs.«136985_j53687091200507_2_alg».proof.Proof.Gen.ReferenceIdeal.Run
import proofs.«136985_j53687091200507_2_alg».proof.Proof.Gen.ReferenceIdeal.Read
import proofs.«136985_j53687091200507_2_alg».proof.Proof.KernelRun
import proofs.«136985_j53687091200507_2_alg».proof.Proof.RefValue
import proofs.«136985_j53687091200507_2_alg».proof.Proof.Bridge
import Idealize.ShloMosaic.Adequacy
import Idealize.ShloMosaic.Init

noncomputable section

namespace Cert.Proof

open Idealize.ShloMosaic Idealize.SL.Sem

/-- The word-level program runs and keeps its arguments. -/
theorem frame_k : Cert.frame_Kernel := fun m ρ _ => Cert.Kernel.Gen.frame m ρ

/-- So does the program read over the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end with their result at the same function of the (agreeing) arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6, Cert.ReferenceIdeal.Read.val_main_v31_eq]
  exact (Cert.Proof.Bridge.resultOf_eq _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
